-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x12x4096x64 : Shape := ⟨4, ![2, 12, 4096, 64]⟩
abbrev S2x4096 : Shape := ⟨2, ![2, 4096]⟩
abbrev S_ : Shape := ⟨0, ![]⟩

class Facts : Prop where
  bcast_S_S2x12x4096x64 : S_.BroadcastsInDim S2x12x4096x64 (![] : Fin 0 → Fin S2x12x4096x64.rank)
  reducesTo_S2x12x4096x64_S_d0_1_2_3 : S2x12x4096x64.ReducesTo [0, 1, 2, 3] S_
  h_S_ : 0 < S_.numel
  bcast_S_S2x4096 : S_.BroadcastsInDim S2x4096 (![] : Fin 0 → Fin S2x4096.rank)
  reducesTo_S2x4096_S_d0_1 : S2x4096.ReducesTo [0, 1] S_

variable [Facts]

def fn_part1 {F : FTy → Type} [FloatOps F] (main_v13 : IVec S_ 1) (main_v16 : IVec S2x4096 1) : IVec S_ 1 :=
  let main_c_5 : IVec S_ 1 := constantI S_ 1 1#1
  let main_v17 : IVec S_ 1 := (fun x v => Host.reduce IntOp.andi x v reducesTo_S2x4096_S_d0_1 h_S_) main_v16 main_c_5
  let main_v18 : IVec S_ 1 := andi main_v13 main_v17
  main_v18

def fn {F : FTy → Type} [FloatOps F] (main_arg0 : FVec F S2x12x4096x64 .f32) (main_arg1 : FVec F S2x12x4096x64 .f32) (main_arg2 : FVec F S2x12x4096x64 .f32) (main_arg3 : FVec F S2x4096 .f32) : IVec S_ 1 :=
  let main_v0 : FVec F S2x12x4096x64 .f32 := Host.absf main_arg0
  let main_cst : FVec F S_ .f32 := constant S_ .f32 0x7F800000#32
  let main_v1 : FVec F S2x12x4096x64 .f32 := broadcastInDim S2x12x4096x64 ![] bcast_S_S2x12x4096x64 main_cst
  let main_v2 : IVec S2x12x4096x64 1 := cmpf .olt main_v0 main_v1
  let main_c : IVec S_ 1 := constantI S_ 1 1#1
  let main_v3 : IVec S_ 1 := (fun x v => Host.reduce IntOp.andi x v reducesTo_S2x12x4096x64_S_d0_1_2_3 h_S_) main_v2 main_c
  let main_v4 : FVec F S2x12x4096x64 .f32 := Host.absf main_arg1
  let main_cst_0 : FVec F S_ .f32 := constant S_ .f32 0x7F800000#32
  let main_v5 : FVec F S2x12x4096x64 .f32 := broadcastInDim S2x12x4096x64 ![] bcast_S_S2x12x4096x64 main_cst_0
  let main_v6 : IVec S2x12x4096x64 1 := cmpf .olt main_v4 main_v5
  let main_c_1 : IVec S_ 1 := constantI S_ 1 1#1
  let main_v7 : IVec S_ 1 := (fun x v => Host.reduce IntOp.andi x v reducesTo_S2x12x4096x64_S_d0_1_2_3 h_S_) main_v6 main_c_1
  let main_v8 : IVec S_ 1 := andi main_v3 main_v7
  let main_v9 : FVec F S2x12x4096x64 .f32 := Host.absf main_arg2
  let main_cst_2 : FVec F S_ .f32 := constant S_ .f32 0x7F800000#32
  let main_v10 : FVec F S2x12x4096x64 .f32 := broadcastInDim S2x12x4096x64 ![] bcast_S_S2x12x4096x64 main_cst_2
  let main_v11 : IVec S2x12x4096x64 1 := cmpf .olt main_v9 main_v10
  let main_c_3 : IVec S_ 1 := constantI S_ 1 1#1
  let main_v12 : IVec S_ 1 := (fun x v => Host.reduce IntOp.andi x v reducesTo_S2x12x4096x64_S_d0_1_2_3 h_S_) main_v11 main_c_3
  let main_v13 : IVec S_ 1 := andi main_v8 main_v12
  let main_v14 : FVec F S2x4096 .f32 := Host.absf main_arg3
  let main_cst_4 : FVec F S_ .f32 := constant S_ .f32 0x7F800000#32
  let main_v15 : FVec F S2x4096 .f32 := broadcastInDim S2x4096 ![] bcast_S_S2x4096 main_cst_4
  let main_v16 : IVec S2x4096 1 := cmpf .olt main_v14 main_v15
  fn_part1 (F := F) main_v13 main_v16
-- ==== Kernel.lean ====
abbrev S2x12x4096x64 : Shape := ⟨4, ![2, 12, 4096, 64]⟩
abbrev S2x4096 : Shape := ⟨2, ![2, 4096]⟩
abbrev S2x4096x1 : Shape := ⟨3, ![2, 4096, 1]⟩
abbrev S1x2x4096x64 : Shape := ⟨4, ![1, 2, 4096, 64]⟩
abbrev S1x4096x1 : Shape := ⟨3, ![1, 4096, 1]⟩
abbrev S2x4096x64 : Shape := ⟨3, ![2, 4096, 64]⟩
abbrev S4096x1 : Shape := ⟨2, ![4096, 1]⟩
abbrev S2x64x64 : Shape := ⟨3, ![2, 64, 64]⟩

abbrev nBuf : Space → Nat
  | .hbm => 7
  | .vmem => 9
  | .smem => 0
  | _ => 0

abbrev bufTy : (tb : Table) → Fin (tcTables nBuf tb) → BufTy
  | .hbm, ⟨0, _⟩ => ⟨S2x12x4096x64, .f32⟩
  | .hbm, ⟨1, _⟩ => ⟨S2x12x4096x64, .f32⟩
  | .hbm, ⟨2, _⟩ => ⟨S2x12x4096x64, .f32⟩
  | .hbm, ⟨3, _⟩ => ⟨S2x4096, .f32⟩
  | .hbm, ⟨4, _⟩ => ⟨S2x4096, .bf16⟩
  | .hbm, ⟨5, _⟩ => ⟨S2x4096x1, .bf16⟩
  | .hbm, ⟨6, _⟩ => ⟨S2x12x4096x64, .f32⟩
  | .local _ .vmem, ⟨0, _⟩ => ⟨S1x2x4096x64, .f32⟩
  | .local _ .vmem, ⟨1, _⟩ => ⟨S1x2x4096x64, .f32⟩
  | .local _ .vmem, ⟨2, _⟩ => ⟨S1x2x4096x64, .f32⟩
  | .local _ .vmem, ⟨3, _⟩ => ⟨S1x2x4096x64, .f32⟩
  | .local _ .vmem, ⟨4, _⟩ => ⟨S1x2x4096x64, .f32⟩
  | .local _ .vmem, ⟨5, _⟩ => ⟨S1x2x4096x64, .f32⟩
  | .local _ .vmem, ⟨6, _⟩ => ⟨S1x4096x1, .bf16⟩
  | .local _ .vmem, ⟨7, _⟩ => ⟨S1x2x4096x64, .f32⟩
  | .local _ .vmem, ⟨8, _⟩ => ⟨S1x2x4096x64, .f32⟩
  | _, _ => ⟨S2x12x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 6], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x4096x1 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1x2x4096x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  shapeCasts_S2x4096_S2x4096x1 : S2x4096.ShapeCasts S2x4096x1
  inb_S1x2x4096x64_S1x2x4096x64_0_0_0_0 : ∀ a, (![0, 0, 0, 0] : Fin 4 → Nat) a + S1x2x4096x64.size a ≤ S1x2x4096x64.size a
  h_S1x2x4096x64 : 0 < S1x2x4096x64.numel
  shapeCasts_S1x2x4096x64_S2x4096x64 : S1x2x4096x64.ShapeCasts S2x4096x64
  inb_S1x4096x1_S1x4096x1_0_0_0 : ∀ a, (![0, 0, 0] : Fin 3 → Nat) a + S1x4096x1.size a ≤ S1x4096x1.size a
  h_S1x4096x1 : 0 < S1x4096x1.numel
  shapeCasts_S1x4096x1_S4096x1 : S1x4096x1.ShapeCasts S4096x1
  shapeCasts_S4096x1_S1x4096x1 : S4096x1.ShapeCasts S1x4096x1
  broadcasts_S1x4096x1_S2x4096x64 : S1x4096x1.Broadcasts S2x4096x64
  shapeCasts_S2x4096x64_S1x2x4096x64 : S2x4096x64.ShapeCasts S1x2x4096x64
  dot_S2x4096x64_S2x4096x64_S2x64x64_1_1_2_2_0_0_wf : DotDims.WF S2x4096x64 S2x4096x64 S2x64x64 [1] [1] [2] [2] [0] [0]
  dot_S2x4096x64_S2x64x64_S2x4096x64_2_1_1_2_0_0_wf : DotDims.WF S2x4096x64 S2x64x64 S2x4096x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x4096x64.size a ≤ S2x12x4096x64.size a
  hwx0_0 : ∀ i : grid0.Coords, EltTy.bits .f32 = 32 ∨ (Rect.block (s := S2x12x4096x64) S1x2x4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x4096x64.size a ≤ S2x12x4096x64.size a
  hwx0_1 : ∀ i : grid0.Coords, EltTy.bits .f32 = 32 ∨ (Rect.block (s := S2x12x4096x64) S1x2x4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2x4096x64.size a ≤ S2x12x4096x64.size a
  hwx0_2 : ∀ i : grid0.Coords, EltTy.bits .f32 = 32 ∨ (Rect.block (s := S2x12x4096x64) S1x2x4096x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096x1.size a ≤ S2x4096x1.size a
  hwx0_3 : ∀ i : grid0.Coords, EltTy.bits .bf16 = 32 ∨ (Rect.block (s := S2x4096x1) S1x4096x1.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2x4096x64.size a ≤ S2x12x4096x64.size a
  hwx0_4 : ∀ i : grid0.Coords, EltTy.bits .f32 = 32 ∨ (Rect.block (s := S2x12x4096x64) S1x2x4096x64.size (cc0_transform_4 i) (hinb0_4 i)).WholeWords (EltTy.packing .f32)

variable [Facts₀]

def dot_S2x4096x64_S2x4096x64_S2x64x64_1_1_2_2_0_0 : DotDims S2x4096x64 S2x4096x64 S2x64x64 where
  lhsContracting := [1]
  rhsContracting := [1]
  lhsNonContracting := [2]
  rhsNonContracting := [2]
  lhsBatch := [0]
  rhsBatch := [0]
  wf := dot_S2x4096x64_S2x4096x64_S2x64x64_1_1_2_2_0_0_wf
def dot_S2x4096x64_S2x64x64_S2x4096x64_2_1_1_2_0_0 : DotDims S2x4096x64 S2x64x64 S2x4096x64 where
  lhsContracting := [2]
  rhsContracting := [1]
  lhsNonContracting := [1]
  rhsNonContracting := [2]
  lhsBatch := [0]
  rhsBatch := [0]
  wf := dot_S2x4096x64_S2x64x64_S2x4096x64_2_1_1_2_0_0_wf

abbrev win0_0 : Pipeline.Window sig grid0 :=
  Pipeline.Window.ofSpec (Memref.whole main_arg0) S1x2x4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2x4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x4096x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x2x4096x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x12x4096x64 : Shape := ⟨4, ![2, 12, 4096, 64]⟩
abbrev S2x4096 : Shape := ⟨2, ![2, 4096]⟩
abbrev S_ : Shape := ⟨0, ![]⟩
abbrev S2x1x4096x1 : Shape := ⟨4, ![2, 1, 4096, 1]⟩
abbrev S2x12x64x64 : Shape := ⟨4, ![2, 12, 64, 64]⟩

abbrev nBuf : Space → Nat
  | .hbm => 56
  | .vmem => 0
  | .smem => 0
  | _ => 0

abbrev bufTy : (tb : Table) → Fin (tcTables nBuf tb) → BufTy
  | .hbm, ⟨0, _⟩ => ⟨S2x12x4096x64, .f32⟩
  | .hbm, ⟨1, _⟩ => ⟨S2x12x4096x64, .f32⟩
  | .hbm, ⟨2, _⟩ => ⟨S2x12x4096x64, .f32⟩
  | .hbm, ⟨3, _⟩ => ⟨S2x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S2x1x4096x1, .f32⟩
  | .hbm, ⟨10, _⟩ => ⟨S_, .f32⟩
  | .hbm, ⟨11, _⟩ => ⟨S2x12x4096x64, .f32⟩
  | .hbm, ⟨12, _⟩ => ⟨S2x12x4096x64, .i1⟩
  | .hbm, ⟨13, _⟩ => ⟨S_, .f32⟩
  | .hbm, ⟨14, _⟩ => ⟨S2x12x4096x64, .f32⟩
  | .hbm, ⟨15, _⟩ => ⟨S2x12x4096x64, .i1⟩
  | .hbm, ⟨16, _⟩ => ⟨S_, .f32⟩
  | .hbm, ⟨17, _⟩ => ⟨S_, .f32⟩
  | .hbm, ⟨18, _⟩ => ⟨S2x12x4096x64, .f32⟩
  | .hbm, ⟨19, _⟩ => ⟨S2x12x4096x64, .f32⟩
  | .hbm, ⟨20, _⟩ => ⟨S2x12x4096x64, .f32⟩
  | .hbm, ⟨21, _⟩ => ⟨S_, .f32⟩
  | .hbm, ⟨22, _⟩ => ⟨S2x12x4096x64, .f32⟩
  | .hbm, ⟨23, _⟩ => ⟨S2x12x4096x64, .f32⟩
  | .hbm, ⟨24, _⟩ => ⟨S2x12x4096x64, .f32⟩
  | .hbm, ⟨25, _⟩ => ⟨S_, .f32⟩
  | .hbm, ⟨26, _⟩ => ⟨S2x12x4096x64, .f32⟩
  | .hbm, ⟨27, _⟩ => ⟨S2x12x4096x64, .f32⟩
  | .hbm, ⟨28, _⟩ => ⟨S2x12x4096x64, .f32⟩
  | .hbm, ⟨29, _⟩ => ⟨S2x12x4096x64, .f32⟩
  | .hbm, ⟨30, _⟩ => ⟨S_, .f32⟩
  | .hbm, ⟨31, _⟩ => ⟨S2x12x4096x64, .f32⟩
  | .hbm, ⟨32, _⟩ => ⟨S2x12x4096x64, .i1⟩
  | .hbm, ⟨33, _⟩ => ⟨S_, .f32⟩
  | .hbm, ⟨34, _⟩ => ⟨S2x12x4096x64, .f32⟩
  | .hbm, ⟨35, _⟩ => ⟨S2x12x4096x64, .i1⟩
  | .hbm, ⟨36, _⟩ => ⟨S_, .f32⟩
  | .hbm, ⟨37, _⟩ => ⟨S_, .f32⟩
  | .hbm, ⟨38, _⟩ => ⟨S2x12x4096x64, .f32⟩
  | .hbm, ⟨39, _⟩ => ⟨S2x12x4096x64, .f32⟩
  | .hbm, ⟨40, _⟩ => ⟨S2x12x4096x64, .f32⟩
  | .hbm, ⟨41, _⟩ => ⟨S_, .f32⟩
  | .hbm, ⟨42, _⟩ => ⟨S2x12x4096x64, .f32⟩
  | .hbm, ⟨43, _⟩ => ⟨S2x12x4096x64, .f32⟩
  | .hbm, ⟨44, _⟩ => ⟨S2x12x4096x64, .f32⟩
  | .hbm, ⟨45, _⟩ => ⟨S_, .f32⟩
  | .hbm, ⟨46, _⟩ => ⟨S2x12x4096x64, .f32⟩
  | .hbm, ⟨47, _⟩ => ⟨S2x12x4096x64, .f32⟩
  | .hbm, ⟨48, _⟩ => ⟨S2x12x4096x64, .f32⟩
  | .hbm, ⟨49, _⟩ => ⟨S2x12x4096x64, .f32⟩
  | .hbm, ⟨50, _⟩ => ⟨S2x12x4096x64, .f32⟩
  | .hbm, ⟨51, _⟩ => ⟨S2x12x4096x64, .f32⟩
  | .hbm, ⟨52, _⟩ => ⟨S2x12x4096x64, .f32⟩
  | .hbm, ⟨53, _⟩ => ⟨S2x12x4096x64, .f32⟩
  | .hbm, ⟨54, _⟩ => ⟨S2x12x64x64, .f32⟩
  | .hbm, ⟨55, _⟩ => ⟨S2x12x4096x64, .f32⟩
  | _, _ => ⟨S2x12x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_cst_1 : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_v4 : Ref sig .tc := ⟨.hbm, 19, rfl⟩
abbrev main_call0_v5 : Ref sig .tc := ⟨.hbm, 20, rfl⟩
abbrev main_call0_cst_2 : Ref sig .tc := ⟨.hbm, 21, rfl⟩
abbrev main_call0_v6 : Ref sig .tc := ⟨.hbm, 22, rfl⟩
abbrev main_call0_v7 : Ref sig .tc := ⟨.hbm, 23, rfl⟩
abbrev main_v4 : Ref sig .tc := ⟨.hbm, 24, rfl⟩
abbrev main_cst_1 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_call1_cst : Ref sig .tc := ⟨.hbm, 30, rfl⟩
abbrev main_call1_v0 : Ref sig .tc := ⟨.hbm, 31, rfl⟩
abbrev main_call1_v1 : Ref sig .tc := ⟨.hbm, 32, rfl⟩
abbrev main_call1_cst_0 : Ref sig .tc := ⟨.hbm, 33, rfl⟩
abbrev main_call1_v2 : Ref sig .tc := ⟨.hbm, 34, rfl⟩
abbrev main_call1_v3 : Ref sig .tc := ⟨.hbm, 35, rfl⟩
abbrev main_call1_cst_1 : Ref sig .tc := ⟨.hbm, 36, rfl⟩
abbrev main_call1_call0_v0 : Ref sig .tc := ⟨.hbm, 37, rfl⟩
abbrev main_call1_call0_v1 : Ref sig .tc := ⟨.hbm, 38, rfl⟩
abbrev main_call1_v4 : Ref sig .tc := ⟨.hbm, 39, rfl⟩
abbrev main_call1_v5 : Ref sig .tc := ⟨.hbm, 40, rfl⟩
abbrev main_call1_cst_2 : Ref sig .tc := ⟨.hbm, 41, rfl⟩
abbrev main_call1_v6 : Ref sig .tc := ⟨.hbm, 42, rfl⟩
abbrev main_call1_v7 : Ref sig .tc := ⟨.hbm, 43, rfl⟩
abbrev main_v9 : Ref sig .tc := ⟨.hbm, 44, rfl⟩
abbrev main_cst_2 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩

abbrev nD : Nat := 1
abbrev τ : Topo := Topo.v7x

variable {F : FTy → Type} [FloatOps F]

class Facts₀ : Prop where
  bcast_S2x4096_S2x1x4096x1_0_2 : S2x4096.BroadcastsInDim S2x1x4096x1 (![0, 2] : Fin 2 → Fin S2x1x4096x1.rank)
  bcast_S_S2x12x4096x64 : S_.BroadcastsInDim S2x12x4096x64 (![] : Fin 0 → Fin S2x12x4096x64.rank)
  bcast_S2x1x4096x1_S2x12x4096x64_0_1_2_3 : S2x1x4096x1.BroadcastsInDim S2x12x4096x64 (![0, 1, 2, 3] : Fin 4 → Fin S2x12x4096x64.rank)
  dot_S2x12x4096x64_S2x12x4096x64_S2x12x64x64_2_2_3_3_01_01_wf : DotDims.WF S2x12x4096x64 S2x12x4096x64 S2x12x64x64 [2] [2] [3] [3] [0, 1] [0, 1]
  dot_S2x12x4096x64_S2x12x64x64_S2x12x4096x64_3_2_2_3_01_01_wf : DotDims.WF S2x12x4096x64 S2x12x64x64 S2x12x4096x64 [3] [2] [2] [3] [0, 1] [0, 1]

variable [Facts₀]

def dot_S2x12x4096x64_S2x12x4096x64_S2x12x64x64_2_2_3_3_01_01 : DotDims S2x12x4096x64 S2x12x4096x64 S2x12x64x64 where
  lhsContracting := [2]
  rhsContracting := [2]
  lhsNonContracting := [3]
  rhsNonContracting := [3]
  lhsBatch := [0, 1]
  rhsBatch := [0, 1]
  wf := dot_S2x12x4096x64_S2x12x4096x64_S2x12x64x64_2_2_3_3_01_01_wf
def dot_S2x12x4096x64_S2x12x64x64_S2x12x4096x64_3_2_2_3_01_01 : DotDims S2x12x4096x64 S2x12x64x64 S2x12x4096x64 where
  lhsContracting := [3]
  rhsContracting := [2]
  lhsNonContracting := [2]
  rhsNonContracting := [3]
  lhsBatch := [0, 1]
  rhsBatch := [0, 1]
  wf := dot_S2x12x4096x64_S2x12x64x64_S2x12x4096x64_3_2_2_3_01_01_wf

class Facts : Prop extends Facts₀ where

variable [Facts]
-- ==== Proof.Spec.lean ====
/-
  The mathematics of the linear-attention pair, with no program in sight.

  For arrays Q, K, V of shape [2, 12, 4096, 64] and a mask M of shape [2, 4096], write φ(x) = x + 1 for x > 0 and
  φ(x) = eˣ otherwise (the feature map elu(x) + 1). Both programs compute, at (b, h, n, e),

      Σ_d φ(Q[b,h,n,d]) · ( Σ_n' (φ(K[b,h,n',d]) · M[b,n']) · (V[b,h,n',e] · M[b,n']) )

  times the square of the scale N^(-1/4) = 1/8 (N = 4096): one program multiplies the inner sum once by the
  literal 1/64, the other multiplies the query features and the key features by 1/8 each before the two sums.
  `kerAt` and `refAt` are those two arrangements, entry by entry, on the extended reals.
-/
import Idealize.ShloMosaic.PureOps.Ideal
import Idealize.ShloMosaic.Lib.ValueIdx

noncomputable section

namespace Cert.LinAttn

open Idealize.ShloMosaic Idealize.ShloMosaic.ValueIdx

/-- An extended-real array of shape [2, 12, 4096, 64]. -/
abbrev Arr4 : Type := (⟨4, ![2, 12, 4096, 64]⟩ : Shape).Idx → EReal
/-- An extended-real array of shape [2, 4096]. -/
abbrev Arr2 : Type := (⟨2, ![2, 4096]⟩ : Shape).Idx → EReal

/-- The feature map elu(x) + 1: x + 1 above zero, eˣ elsewhere. -/
def feat (x : EReal) : EReal := if 0 < x then x + 1 else Ideal.exp x

/-- The scale 1 / √(√4096), as the reference computes it from the f32 words of 1 and 4096. -/
def sc : EReal :=
  Ideal.div (Ideal.ofBits .f32 0x3F800000#32) (Ideal.sqrt (Ideal.sqrt (Ideal.ofBits .f32 0x45800000#32)))

/-- The kernel's literal 2⁻⁶ (the f32 word 0x3C800000). -/
def c64 : EReal := Ideal.ofBits .f32 0x3C800000#32

/-- Entry (b, h, n, e) with the scale applied once, to the inner sum. -/
def kerAt (Q K V : Arr4) (M : Arr2) (b : Fin 2) (h : Fin 12) (n : Fin 4096) (e : Fin 64) : EReal :=
  ∑ d : Fin 64, feat (Q (ix4 b h n d))
    * ((∑ n' : Fin 4096, (feat (K (ix4 b h n' d)) * M (ix2 b n')) * (V (ix4 b h n' e) * M (ix2 b n'))) * c64)

/-- Entry (b, h, n, e) with the scale applied to the query features and to the key features. -/
def refAt (Q K V : Arr4) (M : Arr2) (b : Fin 2) (h : Fin 12) (n : Fin 4096) (e : Fin 64) : EReal :=
  ∑ d : Fin 64, (feat (Q (ix4 b h n d)) * sc)
    * ∑ n' : Fin 4096, ((feat (K (ix4 b h n' d)) * M (ix2 b n')) * sc) * (V (ix4 b h n' e) * M (ix2 b n'))

/-- The whole result array, kernel arrangement. -/
def kerOut (Q K V : Arr4) (M : Arr2) : Arr4 := fun i => kerAt Q K V M (i 0) (i 1) (i 2) (i 3)

theorem kerOut_ix4 (Q K V : Arr4) (M : Arr2) (b : Fin 2) (h : Fin 12) (n : Fin 4096) (e : Fin 64) :
    kerOut Q K V M (ix4 b h n e) = kerAt Q K V M b h n e := rfl

end Cert.LinAttn

end
-- ==== Proof.Algebra.lean ====
/-
  The algebra of the linear-attention pair: on real entries the two arrangements of the scale agree.

  The reference's scale is 1 / √(√4096) = 1/8, and it multiplies the query features and the key features by it;
  the other arrangement multiplies the inner sum once by 1/64 = (1/8)². Over the reals the two double sums are
  equal by distributivity. On the extended reals distributivity fails at the infinities, so the equality is
  stated for arrays all of whose entries are real numbers.
-/
import proofs.«133145_j395136991249_2_alg».proof.Proof.Spec
import Mathlib.Analysis.SpecialFunctions.Sqrt

noncomputable section

namespace Cert.LinAttn

open Idealize.ShloMosaic Idealize.ShloMosaic.ValueIdx

/-- The f32 word 0x3F800000 denotes the real 1. -/
theorem ofBits_one : Ideal.ofBits .f32 0x3F800000#32 = ((1 : ℝ) : EReal) := by
  simp [Ideal.ofBits, Ideal.ieee, -EReal.coe_mul]; norm_num

/-- The f32 word 0x45800000 denotes the real 4096 = 2¹². -/
theorem ofBits_4096 : Ideal.ofBits .f32 0x45800000#32 = ((4096 : ℝ) : EReal) := by
  simp [Ideal.ofBits, Ideal.ieee, -EReal.coe_mul]; norm_num

/-- The literal 0x3C800000 denotes 2⁻⁶ = 1/64. -/
theorem c64_eq : c64 = ((1 / 64 : ℝ) : EReal) := by
  unfold c64
  simp [Ideal.ofBits, Ideal.ieee, -EReal.coe_mul]; norm_num

/-- √4096 = 64 and √64 = 8, so 1 / √(√4096) = 1/8. -/
theorem sc_eq : sc = ((1 / 8 : ℝ) : EReal) := by
  have h1 : Real.sqrt 4096 = 64 := by
    rw [show (4096 : ℝ) = 64 ^ 2 by norm_num]
    exact Real.sqrt_sq (by norm_num)
  have h2 : Real.sqrt 64 = 8 := by
    rw [show (64 : ℝ) = 8 ^ 2 by norm_num]
    exact Real.sqrt_sq (by norm_num)
  unfold sc
  rw [ofBits_one, ofBits_4096, Ideal.sqrt_coe, if_neg (by norm_num), h1, Ideal.sqrt_coe, if_neg (by norm_num), h2,
    Ideal.div_coe (by norm_num), ← EReal.coe_mul, one_mul]

/-- On a real argument the feature map is the real elu(r) + 1. -/
theorem feat_coe (r : ℝ) : feat (r : EReal) = ((if 0 < r then r + 1 else Real.exp r : ℝ) : EReal) := by
  unfold feat
  by_cases h : 0 < r
  · have h' : (0 : EReal) < (r : EReal) := by exact_mod_cast h
    rw [if_pos h', if_pos h, EReal.coe_add, EReal.coe_one]
  · have h' : ¬ (0 : EReal) < (r : EReal) := by exact_mod_cast h
    rw [if_neg h', if_neg h, Ideal.exp_coe]

/-- A finite sum of real numbers, taken in the extended reals, is the real sum. -/
theorem coe_sum {ι : Type} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- With every entry real, both arrangements are the same real double sum:
    (φq · s) · Σₙ ((φk · m) · s) · (v · m) = φq · ((Σₙ (φk · m) · (v · m)) · (1/64)), since s = 1/8 and s · s = 1/64. -/
theorem refAt_eq_kerAt (Q K V : Arr4) (M : Arr2)
    (hQ : ∀ i, ∃ r : ℝ, Q i = r) (hK : ∀ i, ∃ r : ℝ, K i = r) (hV : ∀ i, ∃ r : ℝ, V i = r)
    (hM : ∀ i, ∃ r : ℝ, M i = r)
    (b : Fin 2) (h : Fin 12) (n : Fin 4096) (e : Fin 64) : refAt Q K V M b h n e = kerAt Q K V M b h n e := by
  choose q hq using hQ
  choose k hk using hK
  choose v hv using hV
  choose m hm using hM
  unfold refAt kerAt
  rw [sc_eq, c64_eq]
  simp only [hq, hk, hv, hm, feat_coe]
  simp only [← EReal.coe_mul, coe_sum]
  rw [EReal.coe_eq_coe_iff]
  refine Finset.sum_congr rfl fun d _ => ?_
  rw [Finset.mul_sum, Finset.sum_mul, Finset.mul_sum]
  refine Finset.sum_congr rfl fun n' _ => ?_
  ring

end Cert.LinAttn

end
-- ==== Proof.LibFiniteAll.lean ====
/-
  `all (|a| < +inf)` at the ideal values: every entry of `a` is a real number.

  At the ideal values an entry of a float array is an extended real, `|a|` is `max a (-a)` and the f32 word
  `0x7F800000` is `+inf`.  So `|a| < +inf` excludes exactly the two infinities, and what is left is a real number.
  A reduction by `and` from `true` over all axes is `true` only if every entry is, which gives the statement for a
  whole array of any shape (`all_real`), in the form a precondition "every float input is finite" prints it: the
  comparison of `abs a` against the scalar `0x7F800000` broadcast to `a`'s shape, reduced to a rank-0 result.
-/
import Idealize.ShloMosaic.PureOps.Ideal
import Idealize.ShloMosaic.Lib.ReduceAll
import Idealize.ShloMosaic.Lib.ValueIdx
import Idealize.ShloMosaic.Lib.Pipeline.Value

noncomputable section

namespace Idealize.ShloMosaic.FiniteAll

open Idealize.ShloMosaic

/-- The word `0x7F800000` denotes `+inf`. -/
theorem inf_word : Ideal.ofBits .f32 0x7F800000#32 = ⊤ := by
  simp [Ideal.ofBits, Ideal.ieee]

/-- An extended real whose absolute value is below `+inf` is a real number. -/
theorem real_of_abs_lt_inf (x : EReal)
    (h : Ideal.cmp .olt (max x (-x)) (Ideal.ofBits .f32 0x7F800000#32) = 1#1) : ∃ r : ℝ, x = r := by
  rw [inf_word] at h
  induction x using EReal.rec with
  | bot => simp [Ideal.cmp] at h
  | coe r => exact ⟨r, rfl⟩
  | top => simp [Ideal.cmp] at h

/-- A rank-0 array has one index. -/
instance subsingleton_idx0 : Subsingleton (⟨0, ![]⟩ : Shape).Idx := ⟨fun _ _ => funext fun d => d.elim0⟩

/-- One array: if `all (|a| < +inf)` is `true` then every entry of `a` is a real number. -/
theorem all_real {s : Shape} {axes : List (Fin s.rank)} (a : FVec Ideal s .f32)
    (bc : (⟨0, ![]⟩ : Shape).BroadcastsInDim s (![] : Fin 0 → Fin s.rank)) (hr : s.ReducesTo axes ⟨0, ![]⟩)
    (hu : 0 < (⟨0, ![]⟩ : Shape).numel) (init : IVec ⟨0, ![]⟩ 1)
    (e : Host.reduce IntOp.andi
          (cmpf .olt (Host.absf a) (broadcastInDim s ![] bc (constant ⟨0, ![]⟩ .f32 0x7F800000#32)))
          init hr hu ValueIdx.ix0 = 1#1)
    (i : s.Idx) : ∃ r : ℝ, a i = r := by
  have h := Host.reduce_andi_all _ init hr hu ValueIdx.ix0 e i
  refine real_of_abs_lt_inf (a i) ?_
  have hb : broadcastInDim s ![] bc (constant (F := Ideal) ⟨0, ![]⟩ .f32 0x7F800000#32) i
      = Ideal.ofBits .f32 0x7F800000#32 :=
    broadcastInDim_apply _ bc _ i ValueIdx.ix0 (fun a => a.elim0)
  rw [← hb]
  exact h

end Idealize.ShloMosaic.FiniteAll

end
-- ==== Proof.Finite.lean ====
/-
  The precondition "every float input is finite" at the ideal values: every entry of every input is a real number.

  The precondition computes, for each of the four inputs, all (|a| < +inf), and returns the conjunction of the
  four. A conjunction of one-bit words is 1 only if each is, and all (|a| < +inf) = 1 says that no entry of a is
  an infinity, so each entry is a real number.
-/
import proofs.«133145_j395136991249_2_alg».proof.Pre_finite_inputs
import proofs.«133145_j395136991249_2_alg».proof.Proof.LibFiniteAll
import Idealize.ShloMosaic.Lib.Affine

noncomputable section

namespace Cert.LinAttn

open Idealize.ShloMosaic

/-- If the generated precondition returns true then the four inputs have real entries throughout. -/
theorem real_of_pre [Cert.Pre_finite_inputs.Facts]
    (a0 a1 a2 : FVec Ideal Cert.Pre_finite_inputs.S2x12x4096x64 .f32) (a3 : FVec Ideal Cert.Pre_finite_inputs.S2x4096 .f32)
    (h : Cert.Pre_finite_inputs.fn (F := Ideal) a0 a1 a2 a3 = fun _ => 1#1) :
    (∀ i, ∃ r : ℝ, a0 i = r) ∧ (∀ i, ∃ r : ℝ, a1 i = r) ∧ (∀ i, ∃ r : ℝ, a2 i = r) ∧ (∀ i, ∃ r : ℝ, a3 i = r) := by
  have h0 := congrFun h ValueIdx.ix0
  dsimp only [Cert.Pre_finite_inputs.fn, Cert.Pre_finite_inputs.fn_part1] at h0
  -- the pointwise conjunction at the one index of the rank-0 result
  change IntOp.andi (IntOp.andi (IntOp.andi _ _) _) _ = 1#1 at h0
  obtain ⟨h012, h3⟩ := IntOp.andi_eq_one.1 h0
  obtain ⟨h01, h2⟩ := IntOp.andi_eq_one.1 h012
  obtain ⟨h0', h1⟩ := IntOp.andi_eq_one.1 h01
  exact ⟨FiniteAll.all_real a0 _ _ _ _ h0', FiniteAll.all_real a1 _ _ _ _ h1,
    FiniteAll.all_real a2 _ _ _ _ h2, FiniteAll.all_real a3 _ _ _ _ h3⟩

end Cert.LinAttn

end
-- ==== Proof.KernelPayload.lean ====
/-
  One grid point's arithmetic, read at an index.

  The body loads a [1, 2, 4096, 64] block of each of Q, K, V (two heads of one batch entry) and the batch entry's
  [1, 4096, 1] mask column, and stores x = qf · ((kfᵀ · vm) · 2⁻⁶) per head g, where qf = φ(q), kf = φ(k) · mask,
  vm = v · mask and φ(x) = x + 1 above zero, eˣ elsewhere.  At the ideal values the changes of float format are the
  identity and each matrix product is the plain sum over its contracted axis, so the stored value at (g, n, e) is

      Σ_d φ(q[g,n,d]) · ((Σ_n' (φ(k[g,n',d]) · mask[n']) · (v[g,n',e] · mask[n'])) · 2⁻⁶).
-/
import proofs.«133145_j395136991249_2_alg».proof.Proof.Gen.KernelIdeal.Skeleton
import proofs.«133145_j395136991249_2_alg».proof.Proof.Spec
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Cert.LinAttn

/-- The f32 word of 1.0 denotes 1. -/
theorem one_word : Ideal.ofBits .f32 0x3F800000#32 = 1 := by
  simp [Ideal.ofBits, Ideal.ieee, -EReal.coe_mul]; norm_num

/-- The feature map as the body spells it, at one element: compare with zero, then x + 1 or eˣ. -/
theorem feat_elt (x : EReal) :
    Scalar.select (Ideal.cmp .ogt x (Ideal.ofBits .f32 0x00000000#32)) (x + Ideal.ofBits .f32 0x3F800000#32) (Ideal.exp x)
      = feat x := by
  rw [Ideal.ofBits_zero_f32, one_word]
  unfold feat Ideal.cmp Scalar.select
  by_cases h : (0 : EReal) < x <;> simp [h]

/-- The feature map over a whole [2, 4096, 64] vector, as the body spells it. -/
def featV (x : FVec Ideal S2x4096x64 .f32) : FVec Ideal S2x4096x64 .f32 :=
  select (cmpf .ogt x (broadcast S2x4096x64 (Scalar.ofBits .f32 0x00000000#32)))
    (addf x (broadcast S2x4096x64 (Scalar.ofBits .f32 0x3F800000#32))) (exp x)

theorem featV_apply (x : FVec Ideal S2x4096x64 .f32) (i : S2x4096x64.Idx) : featV x i = feat (x i) :=
  feat_elt (x i)

/-- A loaded [1, 2, 4096, 64] block re-laid as [2, 4096, 64] reads the block at (0, g, n, d). -/
theorem heads_apply (P : Vec Ideal S1x2x4096x64 .f32) (g : Fin 2) (n : Fin 4096) (d : Fin 64) :
    shapeCast S2x4096x64 P shapeCasts_S1x2x4096x64_S2x4096x64 (ix3 g n d) = P (ix4 0 g n d) := by
  refine shapeCast_apply _ _ (ix3 g n d) (ix4 0 g n d) ?_
  rw [Shape.rowMajor_val_three, Shape.rowMajor_val_four]
  show ((0 * 2 + g.val) * 4096 + n.val) * 64 + d.val = (g.val * 4096 + n.val) * 64 + d.val
  omega

/-- The mask column, widened and spread over heads and lanes, reads the loaded column at row n. -/
theorem maskV_apply (P3 : FVec Ideal S1x4096x1 .bf16) (g : Fin 2) (n : Fin 4096) (d : Fin 64) :
    (broadcastTo S2x4096x64
        (shapeCast S1x4096x1 (extf (F := Ideal) .f32 (shapeCast S4096x1 P3 shapeCasts_S1x4096x1_S4096x1) bitsLt_bf16_f32)
          shapeCasts_S4096x1_S1x4096x1)
        broadcasts_S1x4096x1_S2x4096x64 (ix3 g n d) : EReal)
      = (P3 (ix3 0 n 0) : EReal) := by
  refine (broadcastTo_apply _ _ (ix3 g n d) (ix3 0 n 0) ?_).trans ?_
  · intro a
    match a with
    | ⟨0, _⟩ => rfl
    | ⟨1, _⟩ => rfl
    | ⟨2, _⟩ => rfl
  refine (shapeCast_apply _ _ (ix3 0 n 0) (ix2 n 0) ?_).trans ?_
  · rw [Shape.rowMajor_val_two, Shape.rowMajor_val_three]
    show n.val * 1 + 0 = (0 * 4096 + n.val) * 1 + 0
    omega
  show (shapeCast S4096x1 P3 shapeCasts_S1x4096x1_S4096x1 (ix2 n 0) : EReal) = _
  refine shapeCast_apply _ _ (ix2 n 0) (ix3 0 n 0) ?_
  rw [Shape.rowMajor_val_two, Shape.rowMajor_val_three]
  show (0 * 4096 + n.val) * 1 + 0 = n.val * 1 + 0
  omega

/-- Keys against values: the product contracting the sequence axis, per head, is the sum over the sequence. -/
theorem ktv_apply (A B : FVec Ideal S2x4096x64 .bf16) (g : Fin 2) (d e : Fin 64) :
    matmul dot_S2x4096x64_S2x4096x64_S2x64x64_1_1_2_2_0_0 none A B (constant S2x64x64 .f32 0x00000000#32) (ix3 g d e)
      = ∑ n : Fin 4096, A (ix3 g n d) * B (ix3 g n e) := by
  refine (Ideal.matmul_constant_zero_apply _ _ A B (ix3 g d e)).trans ?_
  refine (Equiv.sum_comp (contrEquiv1 dot_S2x4096x64_S2x4096x64_S2x64x64_1_1_2_2_0_0 4096 rfl rfl).symm _).symm.trans ?_
  refine Finset.sum_congr rfl fun n _ => ?_
  have hl : dot_S2x4096x64_S2x4096x64_S2x64x64_1_1_2_2_0_0.lhsIdx (ix3 g d e)
      ((contrEquiv1 dot_S2x4096x64_S2x4096x64_S2x64x64_1_1_2_2_0_0 4096 rfl rfl).symm n) = ix3 g n d := by
    funext a; apply Fin.ext
    match a with
    | ⟨0, _⟩ => rfl
    | ⟨1, _⟩ => exact (DotDims.lhsIdx_val_of_single _ rfl _ _).trans (contrEquiv1_symm_val _ _ _ _ n)
    | ⟨2, _⟩ => rfl
  have hr : dot_S2x4096x64_S2x4096x64_S2x64x64_1_1_2_2_0_0.rhsIdx (ix3 g d e)
      ((contrEquiv1 dot_S2x4096x64_S2x4096x64_S2x64x64_1_1_2_2_0_0 4096 rfl rfl).symm n) = ix3 g n e := by
    funext a; apply Fin.ext
    match a with
    | ⟨0, _⟩ => rfl
    | ⟨1, _⟩ => exact (DotDims.rhsIdx_val_of_single _ rfl _ _).trans (contrEquiv1_symm_val _ _ _ _ n)
    | ⟨2, _⟩ => rfl
  rw [hl, hr]

/-- Queries against the scaled key-value product: contracting the feature axis, per head, is the sum over features. -/
theorem out_apply (A : FVec Ideal S2x4096x64 .f32) (B : FVec Ideal S2x64x64 .f32) (g : Fin 2) (n : Fin 4096) (e : Fin 64) :
    matmul dot_S2x4096x64_S2x64x64_S2x4096x64_2_1_1_2_0_0 (some .fp32) A B (constant S2x4096x64 .f32 0x00000000#32) (ix3 g n e)
      = ∑ d : Fin 64, A (ix3 g n d) * B (ix3 g d e) := by
  refine (Ideal.matmul_constant_zero_apply _ _ A B (ix3 g n e)).trans ?_
  refine (Equiv.sum_comp (contrEquiv1 dot_S2x4096x64_S2x64x64_S2x4096x64_2_1_1_2_0_0 64 rfl rfl).symm _).symm.trans ?_
  refine Finset.sum_congr rfl fun d _ => ?_
  have hl : dot_S2x4096x64_S2x64x64_S2x4096x64_2_1_1_2_0_0.lhsIdx (ix3 g n e)
      ((contrEquiv1 dot_S2x4096x64_S2x64x64_S2x4096x64_2_1_1_2_0_0 64 rfl rfl).symm d) = ix3 g n d := by
    funext a; apply Fin.ext
    match a with
    | ⟨0, _⟩ => rfl
    | ⟨1, _⟩ => rfl
    | ⟨2, _⟩ => exact (DotDims.lhsIdx_val_of_single _ rfl _ _).trans (contrEquiv1_symm_val _ _ _ _ d)
  have hr : dot_S2x4096x64_S2x64x64_S2x4096x64_2_1_1_2_0_0.rhsIdx (ix3 g n e)
      ((contrEquiv1 dot_S2x4096x64_S2x64x64_S2x4096x64_2_1_1_2_0_0 64 rfl rfl).symm d) = ix3 g d e := by
    funext a; apply Fin.ext
    match a with
    | ⟨0, _⟩ => rfl
    | ⟨1, _⟩ => exact (DotDims.rhsIdx_val_of_single _ rfl _ _).trans (contrEquiv1_symm_val _ _ _ _ d)
    | ⟨2, _⟩ => rfl
  rw [hl, hr]

/-- THE BODY'S VALUE AT (g, n, e), from its four loads. -/
theorem pay2_apply (P0 P1 P2 : Vec Ideal S1x2x4096x64 .f32) (P3 : Vec Ideal S1x4096x1 .bf16)
    (g : Fin 2) (n : Fin 4096) (e : Fin 64) :
    k0_pay2 P0 P1 P2 P3 (ix3 g n e)
      = ∑ d : Fin 64, feat (P0 (ix4 0 g n d))
          * ((∑ n' : Fin 4096, (feat (P1 (ix4 0 g n' d)) * P3 (ix3 0 n' 0)) * (P2 (ix4 0 g n' e) * P3 (ix3 0 n' 0))) * c64) := by
  unfold k0_pay2
  refine (out_apply _ _ g n e).trans ?_
  refine Finset.sum_congr rfl fun d _ => ?_
  refine congrArg₂ (· * ·) ?_ ?_
  · exact (featV_apply _ (ix3 g n d)).trans (congrArg feat (heads_apply P0 g n d))
  · refine (mulf_apply _ _ (ix3 g d e)).trans ?_
    refine congrArg₂ (· * ·) ?_ rfl
    refine (ktv_apply _ _ g d e).trans ?_
    refine Finset.sum_congr rfl fun n' _ => ?_
    refine congrArg₂ (· * ·) ?_ ?_
    · refine congrArg₂ (· * ·) ?_ (maskV_apply P3 g n' d)
      exact (featV_apply _ (ix3 g n' d)).trans (congrArg feat (heads_apply P1 g n' d))
    · exact congrArg₂ (· * ·) (heads_apply P2 g n' e) (maskV_apply P3 g n' e)

end Cert.KernelIdeal.Payload

end
-- ==== Proof.KernelArray.lean ====
/-
  From grid points to the whole result array.

  The grid has 2 × 6 points; point (b, p) works on batch entry b and the two heads 2p, 2p + 1: its blocks of Q, K, V
  and of the result are the [1, 2, 4096, 64] blocks at block index (b, p, 0, 0), and its mask block is column b of the
  [2, 4096, 1] array the program makes of the mask before the launch.  So what the point writes back is the
  restriction to its block of ONE function of the argument arrays — entry (b, h, n, e) of the result depends on the
  rows of head (b, h) of Q, K, V and on row b of the mask — and the 12 blocks tile the result array.
-/
import proofs.«133145_j395136991249_2_alg».proof.Proof.Gen.KernelIdeal.Value
import proofs.«133145_j395136991249_2_alg».proof.Proof.KernelPayload
import proofs.«133145_j395136991249_2_alg».proof.Proof.Spec
import Idealize.ShloMosaic.Lib.Pipeline.Value
import Idealize.ShloMosaic.Lib.StableHlo.Run

set_option maxRecDepth 16384

noncomputable section

namespace Cert.KernelIdeal.Whole

open Cert.KernelIdeal Cert.KernelIdeal.Gen Cert.KernelIdeal.Value Cert.KernelIdeal.Payload
open Idealize.ShloMosaic Idealize.ShloMosaic.TcCoe Idealize.SL.Sem Idealize.ShloMosaic.ValueIdx Idealize.ShloMosaic.StableHlo Cert.LinAttn
open Idealize.ShloMosaic.Pipeline (Dat)

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- The mask as the launch finds it, a [2, 4096, 1] array, read as a [2, 4096] array. -/
def maskOf (c : Dev nD) : Arr2 :=
  fun j => (V m c main_v1 : S2x4096x1.Idx → EReal) (ix3 (n0 := 2) (n1 := 4096) (n2 := 1) (j 0) (j 1) 0)

/-- The result as one function of the arrays the launch finds. -/
def wholeOut (c : Dev nD) : S2x12x4096x64.Idx → EReal :=
  kerOut (V m c main_arg0) (V m c main_arg1) (V m c main_arg2) (maskOf m c)

/-- The index maps over the 12 grid points: the three inputs' blocks sit at the result's block index, the mask's at
    its batch coordinate, the trailing block indices are zero, and the block index ranges over 2 × 6. -/
theorem idx_facts : ∀ t : Fin cfg0.N,
    win0_0.index t (0 : Fin 4) = win0_4.index t (0 : Fin 4) ∧ win0_0.index t (1 : Fin 4) = win0_4.index t (1 : Fin 4)
    ∧ win0_0.index t (2 : Fin 4) = 0 ∧ win0_0.index t (3 : Fin 4) = 0
    ∧ win0_1.index t (0 : Fin 4) = win0_4.index t (0 : Fin 4) ∧ win0_1.index t (1 : Fin 4) = win0_4.index t (1 : Fin 4)
    ∧ win0_1.index t (2 : Fin 4) = 0 ∧ win0_1.index t (3 : Fin 4) = 0
    ∧ win0_2.index t (0 : Fin 4) = win0_4.index t (0 : Fin 4) ∧ win0_2.index t (1 : Fin 4) = win0_4.index t (1 : Fin 4)
    ∧ win0_2.index t (2 : Fin 4) = 0 ∧ win0_2.index t (3 : Fin 4) = 0
    ∧ win0_3.index t (0 : Fin 3) = win0_4.index t (0 : Fin 4) ∧ win0_3.index t (1 : Fin 3) = 0 ∧ win0_3.index t (2 : Fin 3) = 0
    ∧ win0_4.index t (2 : Fin 4) = 0 ∧ win0_4.index t (3 : Fin 4) = 0
    ∧ win0_4.index t (0 : Fin 4) ≤ 1 ∧ win0_4.index t (1 : Fin 4) ≤ 5 :=
  (by decide +kernel : ∀ t : Fin grid0.N, _)

/-- Every block index of the 2 × 6 box is some point's. -/
theorem idx_onto : ∀ (q0 : Fin 2) (q1 : Fin 6), ∃ t : Fin cfg0.N, win0_4.index t = ![q0.val, q1.val, 0, 0] :=
  (by decide +kernel : ∀ (q0 : Fin 2) (q1 : Fin 6), ∃ t : Fin grid0.N, win0_4.index t = ![q0.val, q1.val, 0, 0])

/-- WHAT POINT t WRITES BACK is block t of `wholeOut`. -/
theorem flushed_eq (c : Dev nD) (t : Fin cfg0.N) :
    (dats m 0 c).flushed 4 t = ((cfg0.win 4).blk t).view.read (Elt Ideal) (wholeOut m c) := by
  rw [flushed4]
  unfold out0_4
  simp only [View.ld_unit_zero (S := S1x2x4096x64) hz4, View.ld_unit_zero (S := S1x4096x1) hz3]
  obtain ⟨a00, a01, a02, a03, a10, a11, a12, a13, a20, a21, a22, a23, a30, a31, a32, a42, a43, b0, b1⟩ := idx_facts t
  funext y
  obtain ⟨y0, g, n, e, rfl⟩ : ∃ (y0 : Fin 1) (g : Fin 2) (n : Fin 4096) (e : Fin 64), y = ix4 y0 g n e :=
    ⟨y 0, y 1, y 2, y 3, eq_ix4 y⟩
  obtain rfl : y0 = 0 := Subsingleton.elim _ _
  show (View.canon [(⟨r0_0, k0_pay1 (k0_pay2 (iblk m c 0 t) (iblk m c 1 t) (iblk m c 2 t) (iblk m c 3 t))⟩ :
      View.Piece (Elt Ideal) S1x2x4096x64 .f32)] (ix4 0 g n e) : EReal)
    = wholeOut m c (((cfg0.win 4).blk t).view.emb (ix4 0 g n e))
  refine (canon4_eq _ _ _ _ (ix4 0 g n e)).trans ?_
  have hix : ix4_0 (ix4 0 g n e) = ix3 g n e := by
    funext a
    match a with
    | ⟨0, _⟩ => rfl
    | ⟨1, _⟩ => rfl
    | ⟨2, _⟩ => rfl
  show k0_pay2 (iblk m c 0 t) (iblk m c 1 t) (iblk m c 2 t) (iblk m c 3 t) (ix4_0 (ix4 0 g n e)) = _
  rw [hix]
  refine (pay2_apply _ _ _ _ g n e).trans ?_
  -- the array index under the block index, coordinate by coordinate
  obtain ⟨b, hh, n2, e2, hi⟩ : ∃ (b : Fin 2) (hh : Fin 12) (n2 : Fin 4096) (e2 : Fin 64),
      ((cfg0.win 4).blk t).view.emb (ix4 0 g n e) = ix4 b hh n2 e2 := ⟨_, _, _, _, eq_ix4 _⟩
  have hb : win0_4.index t (0 : Fin 4) * 1 + 1 * 0 = b.val := congrArg Fin.val (congrFun hi 0)
  have hhh : win0_4.index t (1 : Fin 4) * 2 + 1 * g.val = hh.val := congrArg Fin.val (congrFun hi 1)
  have hn2 : win0_4.index t (2 : Fin 4) * 4096 + 1 * n.val = n2.val := congrArg Fin.val (congrFun hi 2)
  have he2 : win0_4.index t (3 : Fin 4) * 64 + 1 * e.val = e2.val := congrArg Fin.val (congrFun hi 3)
  obtain rfl : n2 = n := Fin.ext (by omega)
  obtain rfl : e2 = e := Fin.ext (by omega)
  rw [hi]
  have r0 : ∀ d : Fin 64, iblk m c 0 t (ix4 0 g n2 d) = (V m c main_arg0 : S2x12x4096x64.Idx → EReal) (ix4 b hh n2 d) := fun d => by
    show V m c main_arg0 (((cfg0.win 0).blk t).view.emb (ix4 0 g n2 d)) = _
    refine congrArg _ (funext fun a => Fin.ext ?_)
    match a with
    | ⟨0, _⟩ => show win0_0.index t (0 : Fin 4) * 1 + 1 * 0 = b.val; omega
    | ⟨1, _⟩ => show win0_0.index t (1 : Fin 4) * 2 + 1 * g.val = hh.val; omega
    | ⟨2, _⟩ => show win0_0.index t (2 : Fin 4) * 4096 + 1 * n2.val = n2.val; omega
    | ⟨3, _⟩ => show win0_0.index t (3 : Fin 4) * 64 + 1 * d.val = d.val; omega
  have r1 : ∀ (n' : Fin 4096) (d : Fin 64), iblk m c 1 t (ix4 0 g n' d) = (V m c main_arg1 : S2x12x4096x64.Idx → EReal) (ix4 b hh n' d) := fun n' d => by
    show V m c main_arg1 (((cfg0.win 1).blk t).view.emb (ix4 0 g n' d)) = _
    refine congrArg _ (funext fun a => Fin.ext ?_)
    match a with
    | ⟨0, _⟩ => show win0_1.index t (0 : Fin 4) * 1 + 1 * 0 = b.val; omega
    | ⟨1, _⟩ => show win0_1.index t (1 : Fin 4) * 2 + 1 * g.val = hh.val; omega
    | ⟨2, _⟩ => show win0_1.index t (2 : Fin 4) * 4096 + 1 * n'.val = n'.val; omega
    | ⟨3, _⟩ => show win0_1.index t (3 : Fin 4) * 64 + 1 * d.val = d.val; omega
  have r2 : ∀ (n' : Fin 4096) (d : Fin 64), iblk m c 2 t (ix4 0 g n' d) = (V m c main_arg2 : S2x12x4096x64.Idx → EReal) (ix4 b hh n' d) := fun n' d => by
    show V m c main_arg2 (((cfg0.win 2).blk t).view.emb (ix4 0 g n' d)) = _
    refine congrArg _ (funext fun a => Fin.ext ?_)
    match a with
    | ⟨0, _⟩ => show win0_2.index t (0 : Fin 4) * 1 + 1 * 0 = b.val; omega
    | ⟨1, _⟩ => show win0_2.index t (1 : Fin 4) * 2 + 1 * g.val = hh.val; omega
    | ⟨2, _⟩ => show win0_2.index t (2 : Fin 4) * 4096 + 1 * n'.val = n'.val; omega
    | ⟨3, _⟩ => show win0_2.index t (3 : Fin 4) * 64 + 1 * d.val = d.val; omega
  have r3 : ∀ n' : Fin 4096, (iblk m c 3 t (ix3 0 n' 0) : EReal) = maskOf m c (ix2 b n') := fun n' => by
    show V m c main_v1 (((cfg0.win 3).blk t).view.emb (ix3 0 n' 0)) = V m c main_v1 (ix3 b n' 0)
    refine congrArg _ (funext fun a => Fin.ext ?_)
    match a with
    | ⟨0, _⟩ => show win0_3.index t (0 : Fin 3) * 1 + 1 * 0 = b.val; omega
    | ⟨1, _⟩ => show win0_3.index t (1 : Fin 3) * 4096 + 1 * n'.val = n'.val; omega
    | ⟨2, _⟩ => show win0_3.index t (2 : Fin 3) * 1 + 1 * 0 = 0; omega
  show _ = kerAt (V m c main_arg0) (V m c main_arg1) (V m c main_arg2) (maskOf m c) b hh n2 e2
  unfold kerAt
  refine Finset.sum_congr rfl fun d _ => ?_
  rw [r0 d]
  refine congrArg (_ * ·) (congrArg (· * c64) (Finset.sum_congr rfl fun n' _ => ?_))
  rw [r1 n' d, r2 n' e2, r3 n']

/-- An index of the result array is in point t's block iff each coordinate is in the block's range on its axis. -/
theorem mem_blk (t : Fin cfg0.N) (i : S2x12x4096x64.Idx) :
    i ∈ ((cfg0.win 4).blk t).view.set ↔ ∀ a : Fin 4, win0_4.index t a * S1x2x4096x64.size a ≤ (i a).val
      ∧ (i a).val < win0_4.index t a * S1x2x4096x64.size a + S1x2x4096x64.size a := by
  show i ∈ ((View.whole main_v2).slice (win0_4.rect t)).set ↔ _
  rw [View.set_slice_whole, Rect.mem_set_unit]
  exact Iff.rfl

/-- The 12 blocks cover the result array: entry (b, h, n, e) is in the block of the point with block index (b, h / 2). -/
theorem cover (i : S2x12x4096x64.Idx) :
    ∃ t : Fin cfg0.N, (cfg0.win 4).flush t = true ∧ i ∈ ((cfg0.win 4).blk t).view.set := by
  have hi0 : (i 0).val < 2 := (i 0).isLt
  have hi1 : (i 1).val < 12 := (i 1).isLt
  have hi2 : (i 2).val < 4096 := (i 2).isLt
  have hi3 : (i 3).val < 64 := (i 3).isLt
  obtain ⟨t, ht⟩ := idx_onto ⟨(i 0).val, by omega⟩ ⟨(i 1).val / 2, by omega⟩
  have q0 : win0_4.index t (0 : Fin 4) = (i 0).val := congrFun ht 0
  have q1 : win0_4.index t (1 : Fin 4) = (i 1).val / 2 := congrFun ht 1
  have q2 : win0_4.index t (2 : Fin 4) = 0 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 2 ≤ (i 1).val ∧ (i 1).val < win0_4.index t (1 : Fin 4) * 2 + 2; omega
  | ⟨2, _⟩ => show win0_4.index t (2 : Fin 4) * 4096 ≤ (i 2).val ∧ (i 2).val < win0_4.index t (2 : Fin 4) * 4096 + 4096; omega
  | ⟨3, _⟩ => show win0_4.index t (3 : Fin 4) * 64 ≤ (i 3).val ∧ (i 3).val < win0_4.index t (3 : Fin 4) * 64 + 64; omega

/-- The [2, 4096, 1] array the launch finds is the mask argument itself, entry by entry: a change of float format
    and a reshape that appends a unit axis. -/
theorem V_mask (c : Dev nD) :
    (V m c main_v1 : S2x4096x1.Idx → EReal)
      = shapeCast S2x4096x1 (truncf (F := Ideal) .bf16 (m ((c : Thread nD τ).loc main_arg3)) bitsLt_bf16_f32) shapeCasts_S2x4096_S2x4096x1 := by
  dsimp only [Gen.V, Gen.hostOps0]; after_results; rfl

theorem maskOf_eq (c : Dev nD) : maskOf m c = (m ((c : Thread nD τ).loc main_arg3) : S2x4096.Idx → EReal) := by
  funext j
  obtain ⟨b, n, rfl⟩ : ∃ (b : Fin 2) (n : Fin 4096), j = ix2 b n := ⟨j 0, j 1, eq_ix2 j⟩
  show (V m c main_v1 : S2x4096x1.Idx → EReal) (ix3 b n 0) = _
  rw [V_mask]
  refine shapeCast_apply _ _ (ix3 b n 0) (ix2 b n) ?_
  rw [Shape.rowMajor_val_two, Shape.rowMajor_val_three]
  show b.val * 4096 + n.val = (b.val * 4096 + n.val) * 1 + 0
  omega

/-- THE RESULT ARRAY after the run, as one function of the four arguments. -/
theorem final (c : Dev nD) :
    (dats m 0 c).arrAt 4 cfg0.N
      = kerOut (m ((c : Thread nD τ).loc main_arg0)) (m ((c : Thread nD τ).loc main_arg1)) (m ((c : Thread nD τ).loc main_arg2))
          (m ((c : Thread nD τ).loc main_arg3)) := by
  have h := (dats m 0 c).arrAt_eq_of_cover 4 (wholeOut m c) (fun t _ => flushed_eq m c t) cover
  rw [h]
  unfold wholeOut
  rw [V_main_arg0, V_main_arg1, V_main_arg2, maskOf_eq]

/-- The kernel's run with its result named: every weakly fair execution terminates with the result array at
    `kerOut` of the arguments and the arguments unchanged. -/
theorem run : θ_run defs (onTc (τ := τ) (main (F := Ideal))) ⟨m, fun _ => 0, ρ⟩ fun r => ∀ c : Dev nD,
      r.2.mem ((c : Thread nD τ).loc main_v2)
        = kerOut (m ((c : Thread nD τ).loc main_arg0)) (m ((c : Thread nD τ).loc main_arg1)) (m ((c : Thread nD τ).loc main_arg2))
            (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Whole

end
-- ==== Proof.RefRun.lean ====
/-
  The reference program's run, read back.

  The reference's @main is a straight line of host operations once its calls are unfolded: the scale
  1 / √(√4096) (a constant, two square roots, a division), the mask broadcast to [2, 1, 4096, 1], the function
  elu applied to the queries (fifteen operations: the comparison with zero twice, the select that replaces the
  positive entries by zero before the exponential, expm1, the product with one, the final select), the query
  features (elu + 1) · scale, elu applied to the keys (fifteen more), the key features ((elu + 1) · mask) · scale,
  the masked values, and the two contractions. `ops` is that line, fifty-two operations in program order;
  `refOut` is the term the last buffer holds after it, as a function of the four arguments; `run` says that
  every weakly fair execution ends with the result buffer at `refOut` of the launch contents and the arguments
  unchanged.
-/
import proofs.«133145_j395136991249_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The composed term -/

/-- The scale 1 / √(√4096), a rank-0 array. -/
def scale : FVec F S_ .f32 :=
  Host.divf (constant S_ .f32 0x3F800000#32) (Host.sqrt (Host.sqrt (constant S_ .f32 0x45800000#32)))

/-- A rank-0 array broadcast to [2, 12, 4096, 64]. -/
def splat (v : FVec F S_ .f32) : FVec F S2x12x4096x64 .f32 :=
  broadcastInDim S2x12x4096x64 ![] bcast_S_S2x12x4096x64 v

/-- The mask [2, 4096] broadcast to [2, 1, 4096, 1] and then to [2, 12, 4096, 64]. -/
def maskFull (M : FVec F S2x4096 .f32) : FVec F S2x12x4096x64 .f32 :=
  broadcastInDim S2x12x4096x64 ![0, 1, 2, 3] bcast_S2x1x4096x1_S2x12x4096x64_0_1_2_3
    (broadcastInDim S2x1x4096x1 ![0, 2] bcast_S2x4096_S2x1x4096x1_0_2 M)

/-- One call of elu: x where x > 0, and 1 · expm1 (x with its positive entries replaced by 0) elsewhere. -/
def eluTerm (X : FVec F S2x12x4096x64 .f32) : FVec F S2x12x4096x64 .f32 :=
  select (cmpf .ogt X (splat (constant S_ .f32 0x00000000#32))) X
    (mulf (splat (constant S_ .f32 0x3F800000#32))
      (Host.expm1 (select (cmpf .ogt X (splat (constant S_ .f32 0x00000000#32)))
        (splat (id (constant S_ .f32 0x00000000#32))) X)))

/-- The query features: (elu Q + 1) · scale. -/
def qFeat (Q : FVec F S2x12x4096x64 .f32) : FVec F S2x12x4096x64 .f32 :=
  mulf (addf (eluTerm Q) (splat (constant S_ .f32 0x3F800000#32))) (splat scale)

/-- The key features: ((elu K + 1) · mask) · scale. -/
def kFeat (K : FVec F S2x12x4096x64 .f32) (M : FVec F S2x4096 .f32) : FVec F S2x12x4096x64 .f32 :=
  mulf (mulf (addf (eluTerm K) (splat (constant S_ .f32 0x3F800000#32))) (maskFull M)) (splat scale)

/-- The masked values: V · mask. -/
def vMasked (V : FVec F S2x12x4096x64 .f32) (M : FVec F S2x4096 .f32) : FVec F S2x12x4096x64 .f32 :=
  mulf V (maskFull M)

/-- The first contraction, over the sequence axis: [2, 12, 64, 64]. -/
def ktv (K V : FVec F S2x12x4096x64 .f32) (M : FVec F S2x4096 .f32) : FVec F S2x12x64x64 .f32 :=
  Host.dotGeneral dot_S2x12x4096x64_S2x12x4096x64_S2x12x64x64_2_2_3_3_01_01 none (kFeat K M) (vMasked V M)

/-- What the reference's result buffer holds: the query features contracted with the first contraction over
    the feature axis. -/
def refOut (Q K V : FVec F S2x12x4096x64 .f32) (M : FVec F S2x4096 .f32) : FVec F S2x12x4096x64 .f32 :=
  Host.dotGeneral dot_S2x12x4096x64_S2x12x64x64_S2x12x4096x64_3_2_2_3_01_01 none (qFeat Q) (ktv K V M)

/-! ## The program as a list of operations -/

/-- @main's operations in order, the two calls of elu (and, inside each, the two selects' functions) unfolded
    over the calls' buffer records. -/
abbrev ops : List (HloOp τ sig (Elt F)) :=
  [ nullary main_cst (constant S_ .f32 0x45800000#32),
    unary main_cst main_v0 (Host.sqrt : (⟨S_, .f32⟩ : BufTy).Contents (Elt F) → (⟨S_, .f32⟩ : BufTy).Contents (Elt F)),
    unary main_v0 main_v1 (Host.sqrt : (⟨S_, .f32⟩ : BufTy).Contents (Elt F) → (⟨S_, .f32⟩ : BufTy).Contents (Elt F)),
    nullary main_cst_0 (constant S_ .f32 0x3F800000#32),
    binary main_cst_0 main_v1 main_v2 (Host.divf : (⟨S_, .f32⟩ : BufTy).Contents (Elt F) → (⟨S_, .f32⟩ : BufTy).Contents (Elt F) → (⟨S_, .f32⟩ : BufTy).Contents (Elt F)),
    unary main_arg3 main_v3 (broadcastInDim S2x1x4096x1 ![0, 2] bcast_S2x4096_S2x1x4096x1_0_2 : (⟨S2x4096, .f32⟩ : BufTy).Contents (Elt F) → (⟨S2x1x4096x1, .f32⟩ : BufTy).Contents (Elt F)),
    TRef.nullary main_call0.cst (constant S_ .f32 0x00000000#32),
    TRef.unary main_call0.cst main_call0.v0 (broadcastInDim S2x12x4096x64 ![] bcast_S_S2x12x4096x64),
    TRef.binary (.of main_arg0) main_call0.v0 main_call0.v1 (cmpf .ogt),
    TRef.nullary main_call0.cst_0 (constant S_ .f32 0x00000000#32),
    TRef.unary main_call0.cst_0 main_call0.v2 (broadcastInDim S2x12x4096x64 ![] bcast_S_S2x12x4096x64),
    TRef.binary (.of main_arg0) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S2x12x4096x64 ![] bcast_S_S2x12x4096x64),
    TRef.ternary main_call0.v3 main_call0.call0.v1 (.of main_arg0) main_call0.call0.v2 select,
    TRef.unary main_call0.call0.v2 main_call0.v5 Host.expm1,
    TRef.nullary main_call0.cst_2 (constant S_ .f32 0x3F800000#32),
    TRef.unary main_call0.cst_2 main_call0.v6 (broadcastInDim S2x12x4096x64 ![] bcast_S_S2x12x4096x64),
    TRef.binary main_call0.v6 main_call0.v5 main_call0.v7 mulf,
    TRef.ternary main_call0.v1 (.of main_arg0) main_call0.v7 main_call0.call1.v0 select,
    nullary main_cst_1 (constant S_ .f32 0x3F800000#32),
    unary main_cst_1 main_v5 (broadcastInDim S2x12x4096x64 ![] bcast_S_S2x12x4096x64 : (⟨S_, .f32⟩ : BufTy).Contents (Elt F) → (⟨S2x12x4096x64, .f32⟩ : BufTy).Contents (Elt F)),
    binary main_v4 main_v5 main_v6 (addf : (⟨S2x12x4096x64, .f32⟩ : BufTy).Contents (Elt F) → (⟨S2x12x4096x64, .f32⟩ : BufTy).Contents (Elt F) → (⟨S2x12x4096x64, .f32⟩ : BufTy).Contents (Elt F)),
    unary main_v2 main_v7 (broadcastInDim S2x12x4096x64 ![] bcast_S_S2x12x4096x64 : (⟨S_, .f32⟩ : BufTy).Contents (Elt F) → (⟨S2x12x4096x64, .f32⟩ : BufTy).Contents (Elt F)),
    binary main_v6 main_v7 main_v8 (mulf : (⟨S2x12x4096x64, .f32⟩ : BufTy).Contents (Elt F) → (⟨S2x12x4096x64, .f32⟩ : BufTy).Contents (Elt F) → (⟨S2x12x4096x64, .f32⟩ : BufTy).Contents (Elt F)),
    TRef.nullary main_call1.cst (constant S_ .f32 0x00000000#32),
    TRef.unary main_call1.cst main_call1.v0 (broadcastInDim S2x12x4096x64 ![] bcast_S_S2x12x4096x64),
    TRef.binary (.of main_arg1) main_call1.v0 main_call1.v1 (cmpf .ogt),
    TRef.nullary main_call1.cst_0 (constant S_ .f32 0x00000000#32),
    TRef.unary main_call1.cst_0 main_call1.v2 (broadcastInDim S2x12x4096x64 ![] bcast_S_S2x12x4096x64),
    TRef.binary (.of main_arg1) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S2x12x4096x64 ![] bcast_S_S2x12x4096x64),
    TRef.ternary main_call1.v3 main_call1.call0.v1 (.of main_arg1) main_call1.call0.v2 select,
    TRef.unary main_call1.call0.v2 main_call1.v5 Host.expm1,
    TRef.nullary main_call1.cst_2 (constant S_ .f32 0x3F800000#32),
    TRef.unary main_call1.cst_2 main_call1.v6 (broadcastInDim S2x12x4096x64 ![] bcast_S_S2x12x4096x64),
    TRef.binary main_call1.v6 main_call1.v5 main_call1.v7 mulf,
    TRef.ternary main_call1.v1 (.of main_arg1) main_call1.v7 main_call1.call1.v0 select,
    nullary main_cst_2 (constant S_ .f32 0x3F800000#32),
    unary main_cst_2 main_v10 (broadcastInDim S2x12x4096x64 ![] bcast_S_S2x12x4096x64 : (⟨S_, .f32⟩ : BufTy).Contents (Elt F) → (⟨S2x12x4096x64, .f32⟩ : BufTy).Contents (Elt F)),
    binary main_v9 main_v10 main_v11 (addf : (⟨S2x12x4096x64, .f32⟩ : BufTy).Contents (Elt F) → (⟨S2x12x4096x64, .f32⟩ : BufTy).Contents (Elt F) → (⟨S2x12x4096x64, .f32⟩ : BufTy).Contents (Elt F)),
    unary main_v3 main_v12 (broadcastInDim S2x12x4096x64 ![0, 1, 2, 3] bcast_S2x1x4096x1_S2x12x4096x64_0_1_2_3 : (⟨S2x1x4096x1, .f32⟩ : BufTy).Contents (Elt F) → (⟨S2x12x4096x64, .f32⟩ : BufTy).Contents (Elt F)),
    binary main_v11 main_v12 main_v13 (mulf : (⟨S2x12x4096x64, .f32⟩ : BufTy).Contents (Elt F) → (⟨S2x12x4096x64, .f32⟩ : BufTy).Contents (Elt F) → (⟨S2x12x4096x64, .f32⟩ : BufTy).Contents (Elt F)),
    unary main_v2 main_v14 (broadcastInDim S2x12x4096x64 ![] bcast_S_S2x12x4096x64 : (⟨S_, .f32⟩ : BufTy).Contents (Elt F) → (⟨S2x12x4096x64, .f32⟩ : BufTy).Contents (Elt F)),
    binary main_v13 main_v14 main_v15 (mulf : (⟨S2x12x4096x64, .f32⟩ : BufTy).Contents (Elt F) → (⟨S2x12x4096x64, .f32⟩ : BufTy).Contents (Elt F) → (⟨S2x12x4096x64, .f32⟩ : BufTy).Contents (Elt F)),
    unary main_v3 main_v16 (broadcastInDim S2x12x4096x64 ![0, 1, 2, 3] bcast_S2x1x4096x1_S2x12x4096x64_0_1_2_3 : (⟨S2x1x4096x1, .f32⟩ : BufTy).Contents (Elt F) → (⟨S2x12x4096x64, .f32⟩ : BufTy).Contents (Elt F)),
    binary main_arg2 main_v16 main_v17 (mulf : (⟨S2x12x4096x64, .f32⟩ : BufTy).Contents (Elt F) → (⟨S2x12x4096x64, .f32⟩ : BufTy).Contents (Elt F) → (⟨S2x12x4096x64, .f32⟩ : BufTy).Contents (Elt F)),
    binary main_v15 main_v17 main_v18 ((fun l r => Host.dotGeneral dot_S2x12x4096x64_S2x12x4096x64_S2x12x64x64_2_2_3_3_01_01 none l r) : (⟨S2x12x4096x64, .f32⟩ : BufTy).Contents (Elt F) → (⟨S2x12x4096x64, .f32⟩ : BufTy).Contents (Elt F) → (⟨S2x12x64x64, .f32⟩ : BufTy).Contents (Elt F)),
    binary main_v8 main_v18 main_v19 ((fun l r => Host.dotGeneral dot_S2x12x4096x64_S2x12x64x64_S2x12x4096x64_3_2_2_3_01_01 none l r) : (⟨S2x12x4096x64, .f32⟩ : BufTy).Contents (Elt F) → (⟨S2x12x64x64, .f32⟩ : BufTy).Contents (Elt F) → (⟨S2x12x4096x64, .f32⟩ : BufTy).Contents (Elt F)) ]

set_option maxRecDepth 2048 in
/-- @main is that straight line: the functions unfolded at their calls, sequencing reassociated. -/
theorem main_eq (c : Dev nD) : main (F := F) c = seq ops := by
  simp only [main, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., nullary_bufs_sub .., binary_bufs_sub .., unary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub .., nullary_bufs_sub .., unary_bufs_sub .., binary_bufs_sub ..,
    unary_bufs_sub .., binary_bufs_sub .., nullary_bufs_sub .., unary_bufs_sub .., binary_bufs_sub .., nullary_bufs_sub ..,
    unary_bufs_sub .., binary_bufs_sub .., nullary_bufs_sub .., unary_bufs_sub .., unary_bufs_sub .., ternary_bufs_sub ..,
    unary_bufs_sub .., nullary_bufs_sub .., unary_bufs_sub .., binary_bufs_sub .., ternary_bufs_sub .., nullary_bufs_sub ..,
    unary_bufs_sub .., binary_bufs_sub .., unary_bufs_sub .., binary_bufs_sub .., unary_bufs_sub .., binary_bufs_sub ..,
    unary_bufs_sub .., binary_bufs_sub .., binary_bufs_sub .., binary_bufs_sub ..⟩

/-! ## What the buffers hold after the line -/

set_option maxRecDepth 8192 in
set_option maxHeartbeats 1000000 in
/-- The fold at the result buffer is `refOut`: each operation's result at its own buffer is its function's
    value, at any other buffer what was there. -/
theorem out_eq (V : Valuation τ sig (Elt F)) :
    after ops V (main_v19 : DevRef τ sig)
      = refOut (V (main_arg0 : DevRef τ sig)) (V (main_arg1 : DevRef τ sig)) (V (main_arg2 : DevRef τ sig))
          (V (main_arg3 : DevRef τ sig)) := by
  after_results_simp
  rfl

set_option maxRecDepth 8192 in
theorem arg0_eq (V : Valuation τ sig (Elt F)) :
    after ops V (main_arg0 : DevRef τ sig) = V (main_arg0 : DevRef τ sig) := by
  after_results_simp

set_option maxRecDepth 8192 in
theorem arg1_eq (V : Valuation τ sig (Elt F)) :
    after ops V (main_arg1 : DevRef τ sig) = V (main_arg1 : DevRef τ sig) := by
  after_results_simp

set_option maxRecDepth 8192 in
theorem arg2_eq (V : Valuation τ sig (Elt F)) :
    after ops V (main_arg2 : DevRef τ sig) = V (main_arg2 : DevRef τ sig) := by
  after_results_simp

set_option maxRecDepth 8192 in
theorem arg3_eq (V : Valuation τ sig (Elt F)) :
    after ops V (main_arg3 : DevRef τ sig) = V (main_arg3 : DevRef τ sig) := by
  after_results_simp

/-! ## The run -/

/-- On every device, for any float values, from any memory with zero counters: every weakly fair execution of
    @main terminates with the result buffer at `refOut` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19) = refOut (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v19).trans (out_eq _),
      (h c main_arg0).trans (arg0_eq _),
      (h c main_arg1).trans (arg1_eq _),
      (h c main_arg2).trans (arg2_eq _),
      (h c main_arg3).trans (arg3_eq _)⟩)
    (run_seq scopedRefs_eq scopedSems_eq defs main (fun _ => ops) main_eq (fun _ => ops_sub) m ρ)

end Cert.ReferenceIdeal.RefRun

end
-- ==== Proof.RefRead.lean ====
/-
  The reference's result read at an index, on the extended reals.

  At the ideal instance every operation of the reference is its textbook one, so its result at (b, h, n, e) is a
  closed expression in the arguments' entries. The scale is the constant `sc` (a division of the word of 1 by two
  square roots of the word of 4096: unfolded, never evaluated). The mask broadcast through [2, 1, 4096, 1] to
  [2, 12, 4096, 64] reads M[b, n] at (b, h, n, d). One call of elu followed by the addition of 1 is the feature
  map: where x > 0 the select returns x and x + 1 is the feature; elsewhere it returns 1 · (e^x − 1), the inner select
  having kept x, and (e^x − 1) + 1 = e^x on every extended real that is not above zero (at ⊥ the exponential is 0,
  and 0 − 1 + 1 = 0). Each contraction is a sum over its one contracted axis, re-indexed from the contraction's
  index set to the axis's coordinates. Put together: the reference's entry is `refAt`.
-/
import proofs.«133145_j395136991249_2_alg».proof.Proof.RefRun
import proofs.«133145_j395136991249_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.ReferenceIdeal.RefRead

open Cert.ReferenceIdeal Cert.ReferenceIdeal.Gen Cert.ReferenceIdeal.RefRun Idealize.ShloMosaic
  Idealize.ShloMosaic.ValueIdx Cert.LinAttn

/-! ## The scalar fact: elu(x) + 1 is the feature map -/

/-- On every extended real that is not above zero, (e^x − 1) + 1 = e^x. -/
theorem exp_sub_one_add_one {x : EReal} (hx : ¬ 0 < x) : Ideal.exp x - 1 + 1 = Ideal.exp x := by
  induction x using EReal.rec with
  | bot => rw [Ideal.exp_bot, zero_sub, ← EReal.coe_one, ← EReal.coe_neg, ← EReal.coe_add, neg_add_cancel, EReal.coe_zero]
  | top => exact absurd (EReal.zero_lt_top) hx
  | coe r =>
    rw [Ideal.exp_coe]
    rw [← EReal.coe_one, ← EReal.coe_sub, ← EReal.coe_add, sub_add_cancel]

/-- The words of 0 and 1 denote 0 and 1. -/
theorem ofBits_one_f32 : Ideal.ofBits .f32 0x3F800000#32 = 1 := IdealRules.sign_bit.ideal_onePat .f32

/-- One entry of elu, plus one, is the feature map at that entry: on every extended real. -/
theorem elu_add_one (x : EReal) :
    Scalar.select (Ideal.cmp .ogt x (Ideal.ofBits .f32 0x00000000#32)) x
        (Ideal.ofBits .f32 0x3F800000#32
          * (Ideal.exp (Scalar.select (Ideal.cmp .ogt x (Ideal.ofBits .f32 0x00000000#32))
              (Ideal.ofBits .f32 0x00000000#32) x) - 1))
      + Ideal.ofBits .f32 0x3F800000#32 = feat x := by
  rw [Ideal.ofBits_zero_f32, ofBits_one_f32]
  unfold feat Scalar.select Ideal.cmp
  by_cases hx : 0 < x
  · simp [hx]
  · simp [hx, exp_sub_one_add_one hx]

/-! ## The broadcasts -/

/-- A rank-0 array broadcast to the full shape reads its one entry everywhere. -/
theorem splat_apply (v : FVec Ideal S_ .f32) (i : S2x12x4096x64.Idx) : splat v i = v ix0 := by
  unfold splat
  exact broadcastInDim_apply _ _ v i ix0 (fun a => a.elim0)

/-- The scale's one entry is the constant `sc`: the same division of the same square roots. -/
theorem scale_apply : scale (F := Ideal) ix0 = sc := rfl

/-- The mask, broadcast through [2, 1, 4096, 1] to the full shape, reads M[b, n] at (b, h, n, d). -/
theorem maskFull_apply (M : FVec Ideal S2x4096 .f32) (b : Fin 2) (h : Fin 12) (n : Fin 4096) (d : Fin 64) :
    maskFull M (ix4 b h n d) = M (ix2 b n) := by
  unfold maskFull
  rw [broadcastInDim_apply _ _ _ (ix4 b h n d) (ix4 b (0 : Fin 1) n (0 : Fin 1))
    (fun a => by match a with | ⟨0, _⟩ => rfl | ⟨1, _⟩ => rfl | ⟨2, _⟩ => rfl | ⟨3, _⟩ => rfl)]
  exact broadcastInDim_apply _ _ M _ (ix2 b n) (fun a => by match a with | ⟨0, _⟩ => rfl | ⟨1, _⟩ => rfl)

/-! ## The pointwise stages -/

/-- One call of elu plus the word of 1, at an entry, is the feature map of the argument's entry. -/
theorem eluTerm_add_one (X : FVec Ideal S2x12x4096x64 .f32) (i : S2x12x4096x64.Idx) :
    eluTerm X i + Ideal.ofBits .f32 0x3F800000#32 = feat (X i) :=
  elu_add_one (X i)

/-- The query features at an entry. -/
theorem qFeat_apply (Q : FVec Ideal S2x12x4096x64 .f32) (i : S2x12x4096x64.Idx) :
    qFeat Q i = feat (Q i) * sc := by
  show (eluTerm Q i + splat (constant S_ .f32 0x3F800000#32) i) * splat scale i = _
  rw [splat_apply, splat_apply, scale_apply]
  exact congrArg (· * sc) (eluTerm_add_one Q i)

/-- The key features at an entry. -/
theorem kFeat_apply (K : FVec Ideal S2x12x4096x64 .f32) (M : FVec Ideal S2x4096 .f32)
    (b : Fin 2) (h : Fin 12) (n : Fin 4096) (d : Fin 64) :
    kFeat K M (ix4 b h n d) = (feat (K (ix4 b h n d)) * M (ix2 b n)) * sc := by
  show ((eluTerm K (ix4 b h n d) + splat (constant S_ .f32 0x3F800000#32) (ix4 b h n d)) * maskFull M (ix4 b h n d))
    * splat scale (ix4 b h n d) = _
  rw [splat_apply, splat_apply, scale_apply, maskFull_apply]
  exact congrArg (fun t => t * M (ix2 b n) * sc) (eluTerm_add_one K (ix4 b h n d))

/-- The masked values at an entry. -/
theorem vMasked_apply (V : FVec Ideal S2x12x4096x64 .f32) (M : FVec Ideal S2x4096 .f32)
    (b : Fin 2) (h : Fin 12) (n : Fin 4096) (e : Fin 64) :
    vMasked V M (ix4 b h n e) = V (ix4 b h n e) * M (ix2 b n) := by
  show V (ix4 b h n e) * maskFull M (ix4 b h n e) = _
  rw [maskFull_apply]

/-! ## The contractions -/

/-- The first contraction (batch axes 0 and 1, the sequence axis of both operands contracted) at (b, h, d, e): the
    sum over the sequence coordinate. -/
theorem dot1_apply (l r : FVec Ideal S2x12x4096x64 .f32) (b : Fin 2) (h : Fin 12) (d e : Fin 64) :
    Host.dotGeneral dot_S2x12x4096x64_S2x12x4096x64_S2x12x64x64_2_2_3_3_01_01 none l r (ix4 b h d e)
      = ∑ n : Fin 4096, l (ix4 b h n d) * r (ix4 b h n e) := by
  show FloatOps.dotGeneral dot_S2x12x4096x64_S2x12x4096x64_S2x12x64x64_2_2_3_3_01_01 none .single l r (ix4 b h d e) = _
  rw [Ideal.dotGeneral_apply,
    ← Equiv.sum_comp (contrEquiv1 dot_S2x12x4096x64_S2x12x4096x64_S2x12x64x64_2_2_3_3_01_01 4096 rfl rfl).symm]
  refine Finset.sum_congr rfl fun n _ => ?_
  have hl : (dot_S2x12x4096x64_S2x12x4096x64_S2x12x64x64_2_2_3_3_01_01).lhsIdx (ix4 b h d e)
      ((contrEquiv1 dot_S2x12x4096x64_S2x12x4096x64_S2x12x64x64_2_2_3_3_01_01 4096 rfl rfl).symm n) = ix4 b h n d :=
    funext fun a => Fin.ext (by
      match a with
      | ⟨0, _⟩ => rfl
      | ⟨1, _⟩ => rfl
      | ⟨2, _⟩ =>
        exact (DotDims.lhsIdx_val_of_single dot_S2x12x4096x64_S2x12x4096x64_S2x12x64x64_2_2_3_3_01_01 (cl := ⟨2, by decide⟩) rfl _ _).trans
          (contrEquiv1_symm_val dot_S2x12x4096x64_S2x12x4096x64_S2x12x64x64_2_2_3_3_01_01 4096 rfl rfl n)
      | ⟨3, _⟩ => rfl)
  have hr : (dot_S2x12x4096x64_S2x12x4096x64_S2x12x64x64_2_2_3_3_01_01).rhsIdx (ix4 b h d e)
      ((contrEquiv1 dot_S2x12x4096x64_S2x12x4096x64_S2x12x64x64_2_2_3_3_01_01 4096 rfl rfl).symm n) = ix4 b h n e :=
    funext fun a => Fin.ext (by
      match a with
      | ⟨0, _⟩ => rfl
      | ⟨1, _⟩ => rfl
      | ⟨2, _⟩ =>
        exact (DotDims.rhsIdx_val_of_single dot_S2x12x4096x64_S2x12x4096x64_S2x12x64x64_2_2_3_3_01_01 (cr := ⟨2, by decide⟩) rfl _ _).trans
          (contrEquiv1_symm_val dot_S2x12x4096x64_S2x12x4096x64_S2x12x64x64_2_2_3_3_01_01 4096 rfl rfl n)
      | ⟨3, _⟩ => rfl)
  rw [hl, hr]

/-- The second contraction (batch axes 0 and 1, the left operand's feature axis against the right operand's
    axis 2) at (b, h, n, e): the sum over the feature coordinate. -/
theorem dot2_apply (l : FVec Ideal S2x12x4096x64 .f32) (r : FVec Ideal S2x12x64x64 .f32)
    (b : Fin 2) (h : Fin 12) (n : Fin 4096) (e : Fin 64) :
    Host.dotGeneral dot_S2x12x4096x64_S2x12x64x64_S2x12x4096x64_3_2_2_3_01_01 none l r (ix4 b h n e)
      = ∑ d : Fin 64, l (ix4 b h n d) * r (ix4 b h d e) := by
  show FloatOps.dotGeneral dot_S2x12x4096x64_S2x12x64x64_S2x12x4096x64_3_2_2_3_01_01 none .single l r (ix4 b h n e) = _
  rw [Ideal.dotGeneral_apply,
    ← Equiv.sum_comp (contrEquiv1 dot_S2x12x4096x64_S2x12x64x64_S2x12x4096x64_3_2_2_3_01_01 64 rfl rfl).symm]
  refine Finset.sum_congr rfl fun d _ => ?_
  have hl : (dot_S2x12x4096x64_S2x12x64x64_S2x12x4096x64_3_2_2_3_01_01).lhsIdx (ix4 b h n e)
      ((contrEquiv1 dot_S2x12x4096x64_S2x12x64x64_S2x12x4096x64_3_2_2_3_01_01 64 rfl rfl).symm d) = ix4 b h n d :=
    funext fun a => Fin.ext (by
      match a with
      | ⟨0, _⟩ => rfl
      | ⟨1, _⟩ => rfl
      | ⟨2, _⟩ => rfl
      | ⟨3, _⟩ =>
        exact (DotDims.lhsIdx_val_of_single dot_S2x12x4096x64_S2x12x64x64_S2x12x4096x64_3_2_2_3_01_01 (cl := ⟨3, by decide⟩) rfl _ _).trans
          (contrEquiv1_symm_val dot_S2x12x4096x64_S2x12x64x64_S2x12x4096x64_3_2_2_3_01_01 64 rfl rfl d))
  have hr : (dot_S2x12x4096x64_S2x12x64x64_S2x12x4096x64_3_2_2_3_01_01).rhsIdx (ix4 b h n e)
      ((contrEquiv1 dot_S2x12x4096x64_S2x12x64x64_S2x12x4096x64_3_2_2_3_01_01 64 rfl rfl).symm d) = ix4 b h d e :=
    funext fun a => Fin.ext (by
      match a with
      | ⟨0, _⟩ => rfl
      | ⟨1, _⟩ => rfl
      | ⟨2, _⟩ =>
        exact (DotDims.rhsIdx_val_of_single dot_S2x12x4096x64_S2x12x64x64_S2x12x4096x64_3_2_2_3_01_01 (cr := ⟨2, by decide⟩) rfl _ _).trans
          (contrEquiv1_symm_val dot_S2x12x4096x64_S2x12x64x64_S2x12x4096x64_3_2_2_3_01_01 64 rfl rfl d)
      | ⟨3, _⟩ => rfl)
  rw [hl, hr]

/-- The first contraction of the reference at (b, h, d, e). -/
theorem ktv_apply (K V : FVec Ideal S2x12x4096x64 .f32) (M : FVec Ideal S2x4096 .f32)
    (b : Fin 2) (h : Fin 12) (d e : Fin 64) :
    ktv K V M (ix4 b h d e)
      = ∑ n' : Fin 4096, ((feat (K (ix4 b h n' d)) * M (ix2 b n')) * sc) * (V (ix4 b h n' e) * M (ix2 b n')) := by
  unfold ktv
  rw [dot1_apply]
  exact Finset.sum_congr rfl fun n' _ => by rw [kFeat_apply, vMasked_apply]

/-! ## The result -/

/-- The reference's result at (b, h, n, e) is `refAt`. -/
theorem refOut_apply (Q K V : FVec Ideal S2x12x4096x64 .f32) (M : FVec Ideal S2x4096 .f32)
    (b : Fin 2) (h : Fin 12) (n : Fin 4096) (e : Fin 64) :
    Cert.ReferenceIdeal.RefRun.refOut (F := Ideal) Q K V M (ValueIdx.ix4 b h n e) = Cert.LinAttn.refAt Q K V M b h n e := by
  unfold refOut refAt
  rw [dot2_apply]
  exact Finset.sum_congr rfl fun d _ => by rw [qFeat_apply, ktv_apply]

end Cert.ReferenceIdeal.RefRead

end
-- ==== Proof.lean ====
/-
  Linear attention with the feature map elu(x) + 1: a kernel that handles two heads of one batch entry per grid point
  against the jnp reference, as extended reals.

  Write φ(x) = x + 1 for x > 0 and eˣ otherwise, and s = N^(-1/4) = 1/8 for N = 4096.  The reference forms
  Qf = φ(Q)·s, Kf = φ(K)·mask·s, Vm = V·mask and returns Qf · (Kfᵀ · Vm) per head; the kernel forms φ(Q), φ(K)·mask,
  V·mask without the scale, multiplies the small product Kfᵀ·Vm once by 2⁻⁶ = s², and then multiplies by φ(Q).  With
  every input a real number all entries of all intermediate arrays are real numbers, where a factor may be moved
  across a finite sum: the two arrangements agree (`refAt_eq_kerAt`).  At the infinities of the extended reals that
  law fails, which is where the precondition "every input is finite" is used.

  The kernel's result array as one function of the four arguments is `Whole.run` (the generated blockwise value leg,
  the body's arithmetic read at an index, and the tiling of the result by the 12 blocks); the reference's is
  `RefRun.run`, read at an index by `RefRead.refOut_apply`.  The ideal pass rewrote nothing, so the preservation
  claim is trivial.
-/
import proofs.«133145_j395136991249_2_alg».proof.Defs
import proofs.«133145_j395136991249_2_alg».proof.Proof.Gen.Kernel
import proofs.«133145_j395136991249_2_alg».proof.Proof.Gen.Kernel.Frame
import proofs.«133145_j395136991249_2_alg».proof.Proof.Gen.KernelIdeal
import proofs.«133145_j395136991249_2_alg».proof.Proof.Gen.KernelIdeal.Frame
import proofs.«133145_j395136991249_2_alg».proof.Proof.Gen.KernelIdeal.Value
import proofs.«133145_j395136991249_2_alg».proof.Proof.Gen.ReferenceIdeal
import proofs.«133145_j395136991249_2_alg».proof.Proof.Gen.Pre_finite_inputs
import proofs.«133145_j395136991249_2_alg».proof.Proof.Spec
import proofs.«133145_j395136991249_2_alg».proof.Proof.Algebra
import proofs.«133145_j395136991249_2_alg».proof.Proof.Finite
import proofs.«133145_j395136991249_2_alg».proof.Proof.KernelArray
import proofs.«133145_j395136991249_2_alg».proof.Proof.RefRun
import proofs.«133145_j395136991249_2_alg».proof.Proof.RefRead
import Idealize.ShloMosaic.Adequacy
import Idealize.ShloMosaic.Init

noncomputable section

namespace Cert.Proof

open Idealize.ShloMosaic Idealize.ShloMosaic.TcCoe Idealize.SL.Sem Idealize.ShloMosaic.ValueIdx Cert.LinAttn

theorem frame_k : Cert.frame_Kernel := fun m ρ _ => Cert.Kernel.Gen.frame m ρ

theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

/-- Both programs end with the result array at the same function of arguments that agree: entry by entry the
    reference's arrangement of the double sum equals the kernel's, every input being a real number. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2]
  obtain ⟨hQ, hK, hV, hM⟩ := real_of_pre _ _ _ _ (hpre c)
  funext i
  obtain ⟨b, h, n, e, rfl⟩ : ∃ (b : Fin 2) (h : Fin 12) (n : Fin 4096) (e : Fin 64), i = ix4 b h n e :=
    ⟨i 0, i 1, i 2, i 3, eq_ix4 i⟩
  refine (Cert.ReferenceIdeal.RefRead.refOut_apply _ _ _ _ b h n e).trans ?_
  exact refAt_eq_kerAt _ _ _ _ hQ hK hV hM b h n e

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
